-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512 : Shape := ⟨3, ![8, 512, 512]⟩
abbrev S8x64x512 : Shape := ⟨3, ![8, 64, 512]⟩
abbrev S512x512 : Shape := ⟨2, ![512, 512]⟩
abbrev S512 : Shape := ⟨1, ![512]⟩
abbrev S500x512 : Shape := ⟨2, ![500, 512]⟩
abbrev S500 : Shape := ⟨1, ![500]⟩
abbrev S_ : Shape := ⟨0, ![]⟩

class Facts : Prop where
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S500x512 : S_.BroadcastsInDim S500x512 (![] : Fin 0 → Fin S500x512.rank)
  reducesTo_S500x512_S_d0_1 : S500x512.ReducesTo [0, 1] S_
  bcast_S_S500 : S_.BroadcastsInDim S500 (![] : Fin 0 → Fin S500.rank)
  reducesTo_S500_S_d0 : S500.ReducesTo [0] S_

variable [Facts]

def fn_part2 {F : FTy → Type} [FloatOps F] (main_arg7 : FVec F S500 .f32) (main_v33 : IVec S_ 1) : IVec S_ 1 :=
  let main_v34 : FVec F S500 .f32 := Host.absf main_arg7
  let main_cst_12 : FVec F S_ .f32 := constant S_ .f32 0x7F800000#32
  let main_v35 : FVec F S500 .f32 := broadcastInDim S500 ![] bcast_S_S500 main_cst_12
  let main_v36 : IVec S500 1 := cmpf .olt main_v34 main_v35
  let main_c_13 : IVec S_ 1 := constantI S_ 1 1#1
  let main_v37 : IVec S_ 1 := (fun x v => Host.reduce IntOp.andi x v reducesTo_S500_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S500x512 .f32) (main_arg7 : FVec F S500 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S500x512 .f32 := Host.absf main_arg6
  let main_cst_10 : FVec F S_ .f32 := constant S_ .f32 0x7F800000#32
  let main_v30 : FVec F S500x512 .f32 := broadcastInDim S500x512 ![] bcast_S_S500x512 main_cst_10
  let main_v31 : IVec S500x512 1 := cmpf .olt main_v29 main_v30
  let main_c_11 : IVec S_ 1 := constantI S_ 1 1#1
  let main_v32 : IVec S_ 1 := (fun x v => Host.reduce IntOp.andi x v reducesTo_S500x512_S_d0_1 h_S_) main_v31 main_c_11
  let main_v33 : IVec S_ 1 := andi main_v28 main_v32
  fn_part2 (F := F) main_arg7 main_v33

def fn {F : FTy → Type} [FloatOps F] (main_arg0 : FVec F S8x512x512 .f32) (main_arg1 : FVec F S8x64x512 .f32) (main_arg2 : FVec F S512x512 .f32) (main_arg3 : FVec F S512 .f32) (main_arg4 : FVec F S512x512 .f32) (main_arg5 : FVec F S512 .f32) (main_arg6 : FVec F S500x512 .f32) (main_arg7 : FVec F S500 .f32) : IVec S_ 1 :=
  let main_v0 : FVec F S8x512x512 .f32 := Host.absf main_arg0
  let main_cst : FVec F S_ .f32 := constant S_ .f32 0x7F800000#32
  let main_v1 : FVec F S8x512x512 .f32 := broadcastInDim S8x512x512 ![] bcast_S_S8x512x512 main_cst
  let main_v2 : IVec S8x512x512 1 := cmpf .olt main_v0 main_v1
  let main_c : IVec S_ 1 := constantI S_ 1 1#1
  let main_v3 : IVec S_ 1 := (fun x v => Host.reduce IntOp.andi x v reducesTo_S8x512x512_S_d0_1_2 h_S_) main_v2 main_c
  let main_v4 : FVec F S8x64x512 .f32 := Host.absf main_arg1
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S8x512x512 : Shape := ⟨3, ![8, 512, 512]⟩
abbrev S8x64x512 : Shape := ⟨3, ![8, 64, 512]⟩
abbrev S512x512 : Shape := ⟨2, ![512, 512]⟩
abbrev S512 : Shape := ⟨1, ![512]⟩
abbrev S500x512 : Shape := ⟨2, ![500, 512]⟩
abbrev S500 : Shape := ⟨1, ![500]⟩
abbrev S8x512x64x500 : Shape := ⟨4, ![8, 512, 64, 500]⟩
abbrev S1x64x512 : Shape := ⟨3, ![1, 64, 512]⟩
abbrev S1x64x64x500 : Shape := ⟨4, ![1, 64, 64, 500]⟩
abbrev S64x512 : Shape := ⟨2, ![64, 512]⟩
abbrev S1x512 : Shape := ⟨2, ![1, 512]⟩
abbrev S64x1x512 : Shape := ⟨3, ![64, 1, 512]⟩
abbrev S64x64x512 : Shape := ⟨3, ![64, 64, 512]⟩
abbrev S4096x512 : Shape := ⟨2, ![4096, 512]⟩
abbrev S4096x500 : Shape := ⟨2, ![4096, 500]⟩
abbrev S1x500 : Shape := ⟨2, ![1, 500]⟩
abbrev S64x64x500 : Shape := ⟨3, ![64, 64, 500]⟩

abbrev nBuf : Space → Nat
  | .hbm => 9
  | .vmem => 12
  | .smem => 0
  | _ => 0

abbrev bufTy : (tb : Table) → Fin (tcTables nBuf tb) → BufTy
  | .hbm, ⟨0, _⟩ => ⟨S8x512x512, .f32⟩
  | .hbm, ⟨1, _⟩ => ⟨S8x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S500x512, .f32⟩
  | .hbm, ⟨7, _⟩ => ⟨S500, .f32⟩
  | .hbm, ⟨8, _⟩ => ⟨S8x512x64x500, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S500x512, .f32⟩
  | .local _ .vmem, ⟨9, _⟩ => ⟨S500, .f32⟩
  | .local _ .vmem, ⟨10, _⟩ => ⟨S1x64x64x500, .f32⟩
  | .local _ .vmem, ⟨11, _⟩ => ⟨S1x64x64x500, .f32⟩
  | _, _ => ⟨S8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S500x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S500 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x64x64x500 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S500x512_S500x512_0_0 : ∀ a, (![0, 0] : Fin 2 → Nat) a + S500x512.size a ≤ S500x512.size a
  h_S500x512 : 0 < S500x512.numel
  inb_S512_S512_0 : ∀ a, (![0] : Fin 1 → Nat) a + S512.size a ≤ S512.size a
  h_S512 : 0 < S512.numel
  inb_S500_S500_0 : ∀ a, (![0] : Fin 1 → Nat) a + S500.size a ≤ S500.size a
  h_S500 : 0 < S500.numel
  shapeCasts_S512_S1x512 : S512.ShapeCasts S1x512
  broadcasts_S1x512_S64x512 : S1x512.Broadcasts S64x512
  shapeCasts_S64x512_S64x1x512 : S64x512.ShapeCasts S64x1x512
  shapeCasts_S64x512_S1x64x512 : S64x512.ShapeCasts S1x64x512
  broadcasts_S64x1x512_S64x64x512 : S64x1x512.Broadcasts S64x64x512
  broadcasts_S1x64x512_S64x64x512 : S1x64x512.Broadcasts S64x64x512
  shapeCasts_S64x64x512_S4096x512 : S64x64x512.ShapeCasts S4096x512
  shapeCasts_S500_S1x500 : S500.ShapeCasts S1x500
  broadcasts_S1x500_S4096x500 : S1x500.Broadcasts S4096x500
  shapeCasts_S4096x500_S64x64x500 : S4096x500.ShapeCasts S64x64x500
  inb_S1x64x64x500_S1x64x64x500_0_0_0_0 : ∀ a, (![0, 0, 0, 0] : Fin 4 → Nat) a + S1x64x64x500.size a ≤ S1x64x64x500.size a
  h_S1x64x64x500 : 0 < S1x64x64x500.numel
  shapeCasts_S1x64x64x500_S64x64x500 : S1x64x64x500.ShapeCasts S64x64x500
  shapeCasts_S64x64x500_S1x64x64x500 : S64x64x500.ShapeCasts S1x64x64x500
  dot_S64x512_S512x512_S64x512_1_1_0_0_n_n_wf : DotDims.WF S64x512 S512x512 S64x512 [1] [1] [0] [0] [] []
  dot_S4096x512_S500x512_S4096x500_1_1_0_0_n_n_wf : DotDims.WF S4096x512 S500x512 S4096x500 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S8x512x512.size a
  hwx0_0 : ∀ i : grid0.Coords, EltTy.bits .f32 = 32 ∨ (Rect.block (s := S8x512x512) S1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .f32 = 32 ∨ (Rect.block (s := S8x64x512) S1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S500x512.size a ≤ S500x512.size a
  hwx0_6 : ∀ i : grid0.Coords, EltTy.bits .f32 = 32 ∨ (Rect.block (s := S500x512) S500x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S500.size a ≤ S500.size a
  hwx0_7 : ∀ i : grid0.Coords, EltTy.bits .f32 = 32 ∨ (Rect.block (s := S500) S500.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x64x500.size a ≤ S8x512x64x500.size a
  hwx0_8 : ∀ i : grid0.Coords, EltTy.bits .f32 = 32 ∨ (Rect.block (s := S8x512x64x500) S1x64x64x500.size (cc0_transform_8 i) (hinb0_8 i)).WholeWords (EltTy.packing .f32)

variable [Facts₀]

def dot_S64x512_S512x512_S64x512_1_1_0_0_n_n : DotDims S64x512 S512x512 S64x512 where
  lhsContracting := [1]
  rhsContracting := [1]
  lhsNonContracting := [0]
  rhsNonContracting := [0]
  lhsBatch := []
  rhsBatch := []
  wf := dot_S64x512_S512x512_S64x512_1_1_0_0_n_n_wf
def dot_S4096x512_S500x512_S4096x500_1_1_0_0_n_n : DotDims S4096x512 S500x512 S4096x500 where
  lhsContracting := [1]
  rhsContracting := [1]
  lhsNonContracting := [0]
  rhsNonContracting := [0]
  lhsBatch := []
  rhsBatch := []
  wf := dot_S4096x512_S500x512_S4096x500_1_1_0_0_n_n_wf

abbrev win0_0 : Pipeline.Window sig grid0 :=
  Pipeline.Window.ofSpec (Memref.whole main_arg0) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S500x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S500.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x64x64x500.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x512x512 : Shape := ⟨3, ![8, 512, 512]⟩
abbrev S8x64x512 : Shape := ⟨3, ![8, 64, 512]⟩
abbrev S512x512 : Shape := ⟨2, ![512, 512]⟩
abbrev S512 : Shape := ⟨1, ![512]⟩
abbrev S500x512 : Shape := ⟨2, ![500, 512]⟩
abbrev S500 : Shape := ⟨1, ![500]⟩
abbrev S1x1x512 : Shape := ⟨3, ![1, 1, 512]⟩
abbrev S8x512x1x512 : Shape := ⟨4, ![8, 512, 1, 512]⟩
abbrev S8x1x64x512 : Shape := ⟨4, ![8, 1, 64, 512]⟩
abbrev S8x512x64x512 : Shape := ⟨4, ![8, 512, 64, 512]⟩
abbrev S8x512x64x500 : Shape := ⟨4, ![8, 512, 64, 500]⟩
abbrev S1x1x1x500 : Shape := ⟨4, ![1, 1, 1, 500]⟩

abbrev nBuf : Space → Nat
  | .hbm => 26
  | .vmem => 0
  | .smem => 0
  | _ => 0

abbrev bufTy : (tb : Table) → Fin (tcTables nBuf tb) → BufTy
  | .hbm, ⟨0, _⟩ => ⟨S8x512x512, .f32⟩
  | .hbm, ⟨1, _⟩ => ⟨S8x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S500x512, .f32⟩
  | .hbm, ⟨7, _⟩ => ⟨S500, .f32⟩
  | .hbm, ⟨8, _⟩ => ⟨S8x512x512, .f32⟩
  | .hbm, ⟨9, _⟩ => ⟨S1x1x512, .f32⟩
  | .hbm, ⟨10, _⟩ => ⟨S8x512x512, .f32⟩
  | .hbm, ⟨11, _⟩ => ⟨S8x512x512, .f32⟩
  | .hbm, ⟨12, _⟩ => ⟨S8x64x512, .f32⟩
  | .hbm, ⟨13, _⟩ => ⟨S1x1x512, .f32⟩
  | .hbm, ⟨14, _⟩ => ⟨S8x64x512, .f32⟩
  | .hbm, ⟨15, _⟩ => ⟨S8x64x512, .f32⟩
  | .hbm, ⟨16, _⟩ => ⟨S8x512x1x512, .f32⟩
  | .hbm, ⟨17, _⟩ => ⟨S8x1x64x512, .f32⟩
  | .hbm, ⟨18, _⟩ => ⟨S8x512x64x512, .f32⟩
  | .hbm, ⟨19, _⟩ => ⟨S8x512x64x512, .f32⟩
  | .hbm, ⟨20, _⟩ => ⟨S8x512x64x512, .f32⟩
  | .hbm, ⟨21, _⟩ => ⟨S8x512x64x512, .f32⟩
  | .hbm, ⟨22, _⟩ => ⟨S8x512x64x500, .f32⟩
  | .hbm, ⟨23, _⟩ => ⟨S1x1x1x500, .f32⟩
  | .hbm, ⟨24, _⟩ => ⟨S8x512x64x500, .f32⟩
  | .hbm, ⟨25, _⟩ => ⟨S8x512x64x500, .f32⟩
  | _, _ => ⟨S8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x512x512_0_1_2 : S1x1x512.BroadcastsInDim S8x512x512 (![0, 1, 2] : Fin 3 → Fin S8x512x512.rank)
  bcast_S1x1x512_S8x64x512_0_1_2 : S1x1x512.BroadcastsInDim S8x64x512 (![0, 1, 2] : Fin 3 → Fin S8x64x512.rank)
  bcast_S8x512x512_S8x512x1x512_0_1_3 : S8x512x512.BroadcastsInDim S8x512x1x512 (![0, 1, 3] : Fin 3 → Fin S8x512x1x512.rank)
  bcast_S8x64x512_S8x1x64x512_0_2_3 : S8x64x512.BroadcastsInDim S8x1x64x512 (![0, 2, 3] : Fin 3 → Fin S8x1x64x512.rank)
  bcast_S8x512x1x512_S8x512x64x512_0_1_2_3 : S8x512x1x512.BroadcastsInDim S8x512x64x512 (![0, 1, 2, 3] : Fin 4 → Fin S8x512x64x512.rank)
  bcast_S8x1x64x512_S8x512x64x512_0_1_2_3 : S8x1x64x512.BroadcastsInDim S8x512x64x512 (![0, 1, 2, 3] : Fin 4 → Fin S8x512x64x512.rank)
  bcast_S500_S1x1x1x500_3 : S500.BroadcastsInDim S1x1x1x500 (![3] : Fin 1 → Fin S1x1x1x500.rank)
  bcast_S1x1x1x500_S8x512x64x500_0_1_2_3 : S1x1x1x500.BroadcastsInDim S8x512x64x500 (![0, 1, 2, 3] : Fin 4 → Fin S8x512x64x500.rank)
  dot_S8x512x512_S512x512_S8x512x512_2_1_01_0_n_n_wf : DotDims.WF S8x512x512 S512x512 S8x512x512 [2] [1] [0, 1] [0] [] []
  dot_S8x64x512_S512x512_S8x64x512_2_1_01_0_n_n_wf : DotDims.WF S8x64x512 S512x512 S8x64x512 [2] [1] [0, 1] [0] [] []
  dot_S8x512x64x512_S500x512_S8x512x64x500_3_1_012_0_n_n_wf : DotDims.WF S8x512x64x512 S500x512 S8x512x64x500 [3] [1] [0, 1, 2] [0] [] []

variable [Facts₀]

def dot_S8x512x512_S512x512_S8x512x512_2_1_01_0_n_n : DotDims S8x512x512 S512x512 S8x512x512 where
  lhsContracting := [2]
  rhsContracting := [1]
  lhsNonContracting := [0, 1]
  rhsNonContracting := [0]
  lhsBatch := []
  rhsBatch := []
  wf := dot_S8x512x512_S512x512_S8x512x512_2_1_01_0_n_n_wf
def dot_S8x64x512_S512x512_S8x64x512_2_1_01_0_n_n : DotDims S8x64x512 S512x512 S8x64x512 where
  lhsContracting := [2]
  rhsContracting := [1]
  lhsNonContracting := [0, 1]
  rhsNonContracting := [0]
  lhsBatch := []
  rhsBatch := []
  wf := dot_S8x64x512_S512x512_S8x64x512_2_1_01_0_n_n_wf
def dot_S8x512x64x512_S500x512_S8x512x64x500_3_1_012_0_n_n : DotDims S8x512x64x512 S500x512 S8x512x64x500 where
  lhsContracting := [3]
  rhsContracting := [1]
  lhsNonContracting := [0, 1, 2]
  rhsNonContracting := [0]
  lhsBatch := []
  rhsBatch := []
  wf := dot_S8x512x64x512_S500x512_S8x512x64x500_3_1_012_0_n_n_wf

class Facts : Prop extends Facts₀ where

variable [Facts]
-- ==== Proof.KernelDots.lean ====
/-
  The kernel's two matrix products read at an entry, at the ideal instance.

  Both contract the LAST axis of each operand (`lhs @ rhs.T`) into a zero accumulator, so entry `(p, j)` of the product is
  the plain sum `Σ_k lhs[p,k] · rhs[j,k]` over the whole contracted axis: the accumulator's zero is the extended reals'
  zero, and the one-axis contraction index is its coordinate.
-/
import proofs.«133273_j59906203845291_1_alg».proof.Proof.Gen.KernelIdeal
import Idealize.ShloMosaic.Lib.ValueIdx
import Idealize.ShloMosaic.PureOps.Ideal.Laws

noncomputable section

open scoped BigOperators

namespace Cert.Joiner

open Cert.KernelIdeal Idealize.ShloMosaic Idealize.ShloMosaic.ValueIdx

/-! ## The projections' product: `[64, 512] × [512, 512]ᵀ` -/

theorem projDot_lhs0 (i : S64x512.Idx) (q : dot_S64x512_S512x512_S64x512_1_1_0_0_n_n.contr.Idx) :
    (dot_S64x512_S512x512_S64x512_1_1_0_0_n_n.lhsIdx i q 0).val = (i 0).val := by
  unfold DotDims.lhsIdx
  rw [dif_neg (show ¬(0 : Fin S64x512.rank) ∈ dot_S64x512_S512x512_S64x512_1_1_0_0_n_n.lhsBatch by decide), dif_pos (show (0 : Fin S64x512.rank) ∈ dot_S64x512_S512x512_S64x512_1_1_0_0_n_n.lhsNonContracting by decide)]
  rfl

theorem projDot_lhs1 (i : S64x512.Idx) (q : dot_S64x512_S512x512_S64x512_1_1_0_0_n_n.contr.Idx) :
    (dot_S64x512_S512x512_S64x512_1_1_0_0_n_n.lhsIdx i q 1).val = (q ⟨0, by decide⟩).val :=
  dot_S64x512_S512x512_S64x512_1_1_0_0_n_n.lhsIdx_val_of_single rfl i q

theorem projDot_rhs0 (i : S64x512.Idx) (q : dot_S64x512_S512x512_S64x512_1_1_0_0_n_n.contr.Idx) :
    (dot_S64x512_S512x512_S64x512_1_1_0_0_n_n.rhsIdx i q 0).val = (i 1).val := by
  unfold DotDims.rhsIdx
  rw [dif_neg (show ¬(0 : Fin S512x512.rank) ∈ dot_S64x512_S512x512_S64x512_1_1_0_0_n_n.rhsBatch by decide), dif_pos (show (0 : Fin S512x512.rank) ∈ dot_S64x512_S512x512_S64x512_1_1_0_0_n_n.rhsNonContracting by decide)]
  rfl

theorem projDot_rhs1 (i : S64x512.Idx) (q : dot_S64x512_S512x512_S64x512_1_1_0_0_n_n.contr.Idx) :
    (dot_S64x512_S512x512_S64x512_1_1_0_0_n_n.rhsIdx i q 1).val = (q ⟨0, by decide⟩).val :=
  dot_S64x512_S512x512_S64x512_1_1_0_0_n_n.rhsIdx_val_of_single rfl i q

/-- Entry `(p, j)` of a 64-row block against the 512 rows of a weight: `Σ_k l[p,k] · r[j,k]`. -/
theorem projDot_apply {φ₁ φ₂ : FTy} (l : FVec Ideal S64x512 φ₁) (r : FVec Ideal S512x512 φ₂) (p : Fin 64) (j : Fin 512) :
    matmul (F := Ideal) dot_S64x512_S512x512_S64x512_1_1_0_0_n_n none l r (constant (F := Ideal) S64x512 .f32 0x00000000#32) (ix2 p j)
      = ∑ k : Fin 512, l (ix2 p k) * r (ix2 j k) := by
  refine (Ideal.matmul_constant_zero_apply dot_S64x512_S512x512_S64x512_1_1_0_0_n_n none l r (ix2 p j)).trans ?_
  rw [← Equiv.sum_comp (contrEquiv1 dot_S64x512_S512x512_S64x512_1_1_0_0_n_n 512 rfl rfl).symm]
  refine Finset.sum_congr rfl fun k _ => ?_
  have hk := contrEquiv1_symm_val dot_S64x512_S512x512_S64x512_1_1_0_0_n_n 512 rfl rfl k
  have el : dot_S64x512_S512x512_S64x512_1_1_0_0_n_n.lhsIdx (ix2 p j) ((contrEquiv1 dot_S64x512_S512x512_S64x512_1_1_0_0_n_n 512 rfl rfl).symm k) = ix2 p k := funext fun a => Fin.ext (by
    match a with
    | ⟨0, _⟩ => exact projDot_lhs0 _ _
    | ⟨1, _⟩ => exact (projDot_lhs1 _ _).trans hk)
  have er : dot_S64x512_S512x512_S64x512_1_1_0_0_n_n.rhsIdx (ix2 p j) ((contrEquiv1 dot_S64x512_S512x512_S64x512_1_1_0_0_n_n 512 rfl rfl).symm k) = ix2 j k := funext fun a => Fin.ext (by
    match a with
    | ⟨0, _⟩ => exact projDot_rhs0 _ _
    | ⟨1, _⟩ => exact (projDot_rhs1 _ _).trans hk)
  rw [el, er]

/-! ## The output layer's product: `[4096, 512] × [500, 512]ᵀ` -/

theorem outDot_lhs0 (i : S4096x500.Idx) (q : dot_S4096x512_S500x512_S4096x500_1_1_0_0_n_n.contr.Idx) :
    (dot_S4096x512_S500x512_S4096x500_1_1_0_0_n_n.lhsIdx i q 0).val = (i 0).val := by
  unfold DotDims.lhsIdx
  rw [dif_neg (show ¬(0 : Fin S4096x512.rank) ∈ dot_S4096x512_S500x512_S4096x500_1_1_0_0_n_n.lhsBatch by decide), dif_pos (show (0 : Fin S4096x512.rank) ∈ dot_S4096x512_S500x512_S4096x500_1_1_0_0_n_n.lhsNonContracting by decide)]
  rfl

theorem outDot_lhs1 (i : S4096x500.Idx) (q : dot_S4096x512_S500x512_S4096x500_1_1_0_0_n_n.contr.Idx) :
    (dot_S4096x512_S500x512_S4096x500_1_1_0_0_n_n.lhsIdx i q 1).val = (q ⟨0, by decide⟩).val :=
  dot_S4096x512_S500x512_S4096x500_1_1_0_0_n_n.lhsIdx_val_of_single rfl i q

theorem outDot_rhs0 (i : S4096x500.Idx) (q : dot_S4096x512_S500x512_S4096x500_1_1_0_0_n_n.contr.Idx) :
    (dot_S4096x512_S500x512_S4096x500_1_1_0_0_n_n.rhsIdx i q 0).val = (i 1).val := by
  unfold DotDims.rhsIdx
  rw [dif_neg (show ¬(0 : Fin S500x512.rank) ∈ dot_S4096x512_S500x512_S4096x500_1_1_0_0_n_n.rhsBatch by decide), dif_pos (show (0 : Fin S500x512.rank) ∈ dot_S4096x512_S500x512_S4096x500_1_1_0_0_n_n.rhsNonContracting by decide)]
  rfl

theorem outDot_rhs1 (i : S4096x500.Idx) (q : dot_S4096x512_S500x512_S4096x500_1_1_0_0_n_n.contr.Idx) :
    (dot_S4096x512_S500x512_S4096x500_1_1_0_0_n_n.rhsIdx i q 1).val = (q ⟨0, by decide⟩).val :=
  dot_S4096x512_S500x512_S4096x500_1_1_0_0_n_n.rhsIdx_val_of_single rfl i q

/-- Entry `(k, v)` of the 4096 activation rows against the 500 rows of the output weight: `Σ_j l[k,j] · r[v,j]`. -/
theorem outDot_apply {φ₁ φ₂ : FTy} (l : FVec Ideal S4096x512 φ₁) (r : FVec Ideal S500x512 φ₂) (k : Fin 4096) (v : Fin 500) :
    matmul (F := Ideal) dot_S4096x512_S500x512_S4096x500_1_1_0_0_n_n none l r (constant (F := Ideal) S4096x500 .f32 0x00000000#32) (ix2 k v)
      = ∑ j : Fin 512, l (ix2 k j) * r (ix2 v j) := by
  refine (Ideal.matmul_constant_zero_apply dot_S4096x512_S500x512_S4096x500_1_1_0_0_n_n none l r (ix2 k v)).trans ?_
  rw [← Equiv.sum_comp (contrEquiv1 dot_S4096x512_S500x512_S4096x500_1_1_0_0_n_n 512 rfl rfl).symm]
  refine Finset.sum_congr rfl fun j _ => ?_
  have hj := contrEquiv1_symm_val dot_S4096x512_S500x512_S4096x500_1_1_0_0_n_n 512 rfl rfl j
  have el : dot_S4096x512_S500x512_S4096x500_1_1_0_0_n_n.lhsIdx (ix2 k v) ((contrEquiv1 dot_S4096x512_S500x512_S4096x500_1_1_0_0_n_n 512 rfl rfl).symm j) = ix2 k j := funext fun a => Fin.ext (by
    match a with
    | ⟨0, _⟩ => exact outDot_lhs0 _ _
    | ⟨1, _⟩ => exact (outDot_lhs1 _ _).trans hj)
  have er : dot_S4096x512_S500x512_S4096x500_1_1_0_0_n_n.rhsIdx (ix2 k v) ((contrEquiv1 dot_S4096x512_S500x512_S4096x500_1_1_0_0_n_n 512 rfl rfl).symm j) = ix2 v j := funext fun a => Fin.ext (by
    match a with
    | ⟨0, _⟩ => exact outDot_rhs0 _ _
    | ⟨1, _⟩ => exact (outDot_rhs1 _ _).trans hj)
  rw [el, er]

end Cert.Joiner

end
-- ==== Proof.LibFlattenRows.lean ====
/-
  Layout operations of a stack of matrices read at an index given by coordinates, extents general.

  * a matrix `[a, c]` cast to `[a, 1, c]` (a new unit middle axis) and that broadcast along the middle axis to `[a, b, c]`:
    entry `(p, q, r)` is the matrix at `(p, r)`;
  * a stack `[1, b, c]` broadcast along its leading axis to `[a, b, c]`: entry `(p, q, r)` is the operand at `(0, q, r)`;
  * a stack `[a, b, c]` flattened to `[m, c]` with `m = a·b` rows, and a matrix `[m, c]` cut back into `[a, b, c]`:
    row `p·b + q` of the matrix is row `(p, q)` of the stack (row-major order).
-/
import Idealize.ShloMosaic.Lib.ValueLayout

namespace Cert.LibFlattenRows

open Idealize.ShloMosaic Idealize.ShloMosaic.ValueIdx

variable {α : Type}

/-- An `[a, c]` matrix cast to `[a, 1, c]` reads, at `(p, w, r)`, the matrix at `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (w : Fin 1) (r : Fin c) :
    shapeCast ⟨3, ![a, 1, c]⟩ x h (ix3 p w r) = x (ix2 p r) :=
  shapeCast_apply x h _ _ (by
    have hw : w.val = 0 := by omega
    rw [Shape.rowMajor_val_three, Shape.rowMajor_val_two]
    show p.val * c + r.val = (p.val * 1 + w.val) * c + r.val
    rw [hw, Nat.mul_one, Nat.add_zero])

/-- An `[a, 1, c]` array broadcast along its middle axis to `[a, b, c]` reads, at `(p, q, r)`, the operand at
    `(p, 0, r)`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A `[1, b, c]` array broadcast along its leading axis to `[a, b, c]` reads, at `(p, q, r)`, the operand at
    `(0, q, r)`. -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 (0 : Fin 1) q r) := by
  refine broadcastTo_apply x h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A stack `[a, b, c]` flattened to a matrix `[m, c]` reads, at `(k, r)` with `k = p·b + q`, the stack at `(p, q, r)`. -/
theorem shapeCast_abc_mc_apply {a b c m : ℕ} (x : (⟨3, ![a, b, c]⟩ : Shape).Idx → α)
    (h : (⟨3, ![a, b, c]⟩ : Shape).ShapeCasts ⟨2, ![m, c]⟩) (k : Fin m) (r : Fin c) (p : Fin a) (q : Fin b)
    (hk : k.val = p.val * b + q.val) :
    shapeCast ⟨2, ![m, c]⟩ x h (ix2 k r) = x (ix3 p q r) :=
  shapeCast_apply x h _ _ (by
    rw [Shape.rowMajor_val_three, Shape.rowMajor_val_two]
    show (p.val * b + q.val) * c + r.val = k.val * c + r.val
    rw [hk])

/-- A matrix `[m, c]` cut into a stack `[a, b, c]` reads, at `(p, q, r)`, the matrix at `(k, r)` with `k = p·b + q`. -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (r : Fin c) (k : Fin m)
    (hk : k.val = p.val * b + q.val) :
    shapeCast ⟨3, ![a, b, c]⟩ x h (ix3 p q r) = x (ix2 k r) :=
  shapeCast_apply x h _ _ (by
    rw [Shape.rowMajor_val_three, Shape.rowMajor_val_two]
    show k.val * c + r.val = (p.val * b + q.val) * c + r.val
    rw [hk])

end Cert.LibFlattenRows
-- ==== Proof.KernelValue.lean ====
/-
  The kernel body's arithmetic read at one entry of its output block, at the ideal instance.

  From the blocks the body loads — 64 encoder rows `x0`, the batch's 64 decoder rows `x1`, the three weights and the three
  biases — entry `(t, u, v)` of the block it stores is

      Σ_j tanh( (Σ_e x0[0,t,e]·Wenc[j,e] + benc[j]) + (Σ_d x1[0,u,d]·Wdec[j,d] + bdec[j]) ) · Wout[v,j] + bout[v].

  The steps: each projection is a product into a zero accumulator plus a bias row broadcast over the rows (`projBlock_apply`);
  the two projections are laid along a new middle axis and a new leading axis, added and put through `tanh` (`act_apply`);
  the 64 × 64 rows of activations are flattened row-major to 4096 rows, multiplied into the output layer, biased, and cut
  back into 64 × 64 rows (`outBlock_apply`). A change of float format is the identity on the extended reals.
-/
import proofs.«133273_j59906203845291_1_alg».proof.Proof.Gen.KernelIdeal.Skeleton
import proofs.«133273_j59906203845291_1_alg».proof.Proof.KernelDots
import proofs.«133273_j59906203845291_1_alg».proof.Proof.LibFlattenRows
import Idealize.ShloMosaic.Lib.ValueLayout

noncomputable section

open scoped BigOperators

namespace Cert.Joiner

open Cert.KernelIdeal Cert.KernelIdeal.Gen Idealize.ShloMosaic Idealize.ShloMosaic.ValueIdx Cert.LibFlattenRows

/-- One projection of a 64-row block: entry `(p, j)` is row `p` of the block against row `j` of the weight, plus the bias
    at `j` (the bias is a row broadcast over the 64 rows). -/
theorem projBlock_apply (x : FVec Ideal S1x64x512 .f32) (W : FVec Ideal S512x512 .f32) (b : FVec Ideal S512 .f32)
    (h1 : S1x64x512.ShapeCasts S64x512) (hb : FTy.bits .bf16 < FTy.bits .f32) (h2 : S512.ShapeCasts S1x512)
    (h3 : S1x512.Broadcasts S64x512) (p : Fin 64) (j : Fin 512) :
    addf (matmul (F := Ideal) dot_S64x512_S512x512_S64x512_1_1_0_0_n_n none (truncf .bf16 (shapeCast S64x512 x h1) hb) (truncf .bf16 W hb) (constant (F := Ideal) S64x512 .f32 0x00000000#32))
        (broadcastTo S64x512 (shapeCast S1x512 b h2) h3) (ix2 p j)
      = (∑ e : Fin 512, x (ix3 (0 : Fin 1) p e) * W (ix2 j e)) + b (ix1 j) := by
  rw [addf_apply, projDot_apply, broadcastTo_1b_ab_apply, shapeCast_a_1a_apply]
  refine congrArg (· + b (ix1 j)) (Finset.sum_congr rfl fun e _ => ?_)
  rw [truncf_apply, truncf_apply, shapeCast_1ab_ab_apply]

/-- The activation at `(t, u, j)`: the first projection's row `t` and the second's row `u`, added at joint coordinate `j`,
    through `tanh`. -/
theorem act_apply (A B : FVec Ideal S64x512 .f32) (h1 : S64x512.ShapeCasts S64x1x512) (h2 : S64x512.ShapeCasts S1x64x512)
    (h3 : S64x1x512.Broadcasts S64x64x512) (h4 : S1x64x512.Broadcasts S64x64x512) (t u : Fin 64) (j : Fin 512) :
    tanh (addf (broadcastTo S64x64x512 (shapeCast S64x1x512 A h1) h3) (broadcastTo S64x64x512 (shapeCast S1x64x512 B h2) h4)) (ix3 t u j)
      = Ideal.tanh (A (ix2 t j) + B (ix2 u j)) := by
  show Ideal.tanh (broadcastTo S64x64x512 (shapeCast S64x1x512 A h1) h3 (ix3 t u j) + broadcastTo S64x64x512 (shapeCast S1x64x512 B h2) h4 (ix3 t u j)) = _
  rw [broadcastTo_a1c_abc_apply, shapeCast_ac_a1c_apply, broadcastTo_1bc_abc_apply, shapeCast_ab_1ab_apply]

/-- The output layer on the flattened activations, cut back into `[64, 64, 500]`: entry `(t, u, v)` is activation row
    `(t, u)` against row `v` of the output weight, plus the output bias at `v`. Row `(t, u)` is row `64·t + u` of the
    flattened matrix, both ways. -/
theorem outBlock_apply (act : FVec Ideal S64x64x512 .f32) (W : FVec Ideal S500x512 .f32) (b : FVec Ideal S500 .f32)
    (hb : FTy.bits .bf16 < FTy.bits .f32) (h1 : S64x64x512.ShapeCasts S4096x512) (h2 : S500.ShapeCasts S1x500)
    (h3 : S1x500.Broadcasts S4096x500) (h4 : S4096x500.ShapeCasts S64x64x500) (t u : Fin 64) (v : Fin 500) :
    shapeCast S64x64x500 (addf (matmul (F := Ideal) dot_S4096x512_S500x512_S4096x500_1_1_0_0_n_n none (shapeCast S4096x512 (truncf .bf16 act hb) h1) (truncf .bf16 W hb) (constant (F := Ideal) S4096x500 .f32 0x00000000#32))
        (broadcastTo S4096x500 (shapeCast S1x500 b h2) h3)) h4 (ix3 t u v)
      = (∑ j : Fin 512, act (ix3 t u j) * W (ix2 v j)) + b (ix1 v) := by
  have hk : t.val * 64 + u.val < 4096 := by have := t.isLt; have := u.isLt; omega
  rw [shapeCast_mc_abc_apply _ h4 t u v ⟨t.val * 64 + u.val, hk⟩ rfl, addf_apply, outDot_apply, broadcastTo_1b_ab_apply,
    shapeCast_a_1a_apply]
  refine congrArg (· + b (ix1 v)) (Finset.sum_congr rfl fun j _ => ?_)
  rw [shapeCast_abc_mc_apply _ h1 ⟨t.val * 64 + u.val, hk⟩ j t u rfl, truncf_apply, truncf_apply]

/-- THE BODY'S RESULT AT AN ENTRY, as a formula of the loaded blocks. -/
theorem pay_apply (P0 P1 : Vec Ideal S1x64x512 .f32) (P2 P3 : Vec Ideal S512x512 .f32) (P4 : Vec Ideal S500x512 .f32)
    (P5 P6 : Vec Ideal S512 .f32) (P7 : Vec Ideal S500 .f32) (t u : Fin 64) (v : Fin 500) :
    k0_pay2 (F := Ideal) P0 P1 P2 P3 P4 P5 P6 P7 (ix3 t u v)
      = (∑ j : Fin 512, Ideal.tanh (((∑ e : Fin 512, P0 (ix3 (0 : Fin 1) t e) * P2 (ix2 j e)) + P5 (ix1 j))
            + ((∑ d : Fin 512, P1 (ix3 (0 : Fin 1) u d) * P3 (ix2 j d)) + P6 (ix1 j))) * P4 (ix2 v j)) + P7 (ix1 v) := by
  unfold k0_pay2
  refine (outBlock_apply _ _ _ _ _ _ _ _ t u v).trans ?_
  refine congrArg (· + P7 (ix1 v)) (Finset.sum_congr rfl fun j _ => ?_)
  refine congrArg (· * P4 (ix2 v j)) ?_
  refine (act_apply _ _ _ _ _ _ t u j).trans ?_
  rw [projBlock_apply, projBlock_apply]

end Cert.Joiner

end
-- ==== Proof.Spec.lean ====
/-
  The joint network's output as ONE function of its eight argument arrays, index by index, on the extended reals.

  With encoder states `enc[n,t,·]`, decoder states `dec[n,u,·]`, two projections (`Wenc`, `benc`), (`Wdec`, `bdec`)
  into a joint space of 512 coordinates and an output layer (`Wout`, `bout`) onto 500 classes,

      out[n,t,u,v] = Σ_j tanh( (Σ_e enc[n,t,e]·Wenc[j,e] + benc[j]) + (Σ_d dec[n,u,d]·Wdec[j,d] + bdec[j]) ) · Wout[v,j] + bout[v].

  Every sum ranges over one whole axis (`Fin 512`), every index is written by its coordinates.
-/
import Idealize.ShloMosaic.Lib.ValueIdx

noncomputable section

open scoped BigOperators

namespace Cert.Joiner

open Idealize.ShloMosaic Idealize.ShloMosaic.ValueIdx

/-- The encoder projection at batch `n`, frame `t`, joint coordinate `j`: row `(n, t)` of the encoder states against
    row `j` of the weight, plus the bias. -/
def encProj (enc : (⟨3, ![8, 512, 512]⟩ : Shape).Idx → EReal) (Wenc : (⟨2, ![512, 512]⟩ : Shape).Idx → EReal)
    (benc : (⟨1, ![512]⟩ : Shape).Idx → EReal) (n : Fin 8) (t : Fin 512) (j : Fin 512) : EReal :=
  (∑ e : Fin 512, enc (ix3 n t e) * Wenc (ix2 j e)) + benc (ix1 j)

/-- The decoder projection at batch `n`, label position `u`, joint coordinate `j`. -/
def decProj (dec : (⟨3, ![8, 64, 512]⟩ : Shape).Idx → EReal) (Wdec : (⟨2, ![512, 512]⟩ : Shape).Idx → EReal)
    (bdec : (⟨1, ![512]⟩ : Shape).Idx → EReal) (n : Fin 8) (u : Fin 64) (j : Fin 512) : EReal :=
  (∑ d : Fin 512, dec (ix3 n u d) * Wdec (ix2 j d)) + bdec (ix1 j)

/-- One output entry: the hyperbolic tangent of the two projections' sum, against row `v` of the output weight over the
    joint coordinate, plus the output bias. -/
def logit (enc : (⟨3, ![8, 512, 512]⟩ : Shape).Idx → EReal) (dec : (⟨3, ![8, 64, 512]⟩ : Shape).Idx → EReal)
    (Wenc : (⟨2, ![512, 512]⟩ : Shape).Idx → EReal) (benc : (⟨1, ![512]⟩ : Shape).Idx → EReal)
    (Wdec : (⟨2, ![512, 512]⟩ : Shape).Idx → EReal) (bdec : (⟨1, ![512]⟩ : Shape).Idx → EReal)
    (Wout : (⟨2, ![500, 512]⟩ : Shape).Idx → EReal) (bout : (⟨1, ![500]⟩ : Shape).Idx → EReal)
    (n : Fin 8) (t : Fin 512) (u : Fin 64) (v : Fin 500) : EReal :=
  (∑ j : Fin 512, Ideal.tanh (encProj enc Wenc benc n t j + decProj dec Wdec bdec n u j) * Wout (ix2 v j)) + bout (ix1 v)

/-- The whole output array: `logit` at the index's four coordinates. -/
def G (enc : (⟨3, ![8, 512, 512]⟩ : Shape).Idx → EReal) (dec : (⟨3, ![8, 64, 512]⟩ : Shape).Idx → EReal)
    (Wenc : (⟨2, ![512, 512]⟩ : Shape).Idx → EReal) (benc : (⟨1, ![512]⟩ : Shape).Idx → EReal)
    (Wdec : (⟨2, ![512, 512]⟩ : Shape).Idx → EReal) (bdec : (⟨1, ![512]⟩ : Shape).Idx → EReal)
    (Wout : (⟨2, ![500, 512]⟩ : Shape).Idx → EReal) (bout : (⟨1, ![500]⟩ : Shape).Idx → EReal) :
    (⟨4, ![8, 512, 64, 500]⟩ : Shape).Idx → EReal :=
  fun i => logit enc dec Wenc benc Wdec bdec Wout bout (i 0) (i 1) (i 2) (i 3)

/-- `G` at an index given by coordinates. -/
theorem G_ix4 (enc : (⟨3, ![8, 512, 512]⟩ : Shape).Idx → EReal) (dec : (⟨3, ![8, 64, 512]⟩ : Shape).Idx → EReal)
    (Wenc : (⟨2, ![512, 512]⟩ : Shape).Idx → EReal) (benc : (⟨1, ![512]⟩ : Shape).Idx → EReal)
    (Wdec : (⟨2, ![512, 512]⟩ : Shape).Idx → EReal) (bdec : (⟨1, ![512]⟩ : Shape).Idx → EReal)
    (Wout : (⟨2, ![500, 512]⟩ : Shape).Idx → EReal) (bout : (⟨1, ![500]⟩ : Shape).Idx → EReal)
    (n : Fin 8) (t : Fin 512) (u : Fin 64) (v : Fin 500) :
    G enc dec Wenc benc Wdec bdec Wout bout (ix4 n t u v) = logit enc dec Wenc benc Wdec bdec Wout bout n t u v := rfl

end Cert.Joiner

end
-- ==== Proof.Blocks.lean ====
/-
  From blocks to the array: after the run the kernel's output array is `Cert.Joiner.G` of the argument arrays.

  The grid has 8 × 8 points; point `(n, b)` works on batch `n` and on the 64 encoder frames `64·b … 64·b + 63`. Its
  encoder block is rows `(n, 64·b + p)` of the encoder states, its decoder block is batch `n` of the decoder states, the
  weights and biases come whole, and it writes back block `(n, b)` of the output: entries `(n, 64·b + p, q, r)`. So what a
  point writes back is that block of `G` (`flushed_eq`), every output index lies in exactly the block of the point
  `(n, t / 64)` (`cover`), and the array after the last point is `G` everywhere (`final`, `run`).
-/
import proofs.«133273_j59906203845291_1_alg».proof.Proof.Gen.KernelIdeal.Value
import proofs.«133273_j59906203845291_1_alg».proof.Proof.KernelValue
import proofs.«133273_j59906203845291_1_alg».proof.Proof.Spec
import Idealize.ShloMosaic.Lib.Pipeline.Value

noncomputable section

open scoped BigOperators

namespace Cert.Joiner

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The body's result in the output buffer, at an entry -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output window's buffer, at entry `(w, t, u, v)` of the `[1, 64, 64, 500]` block, as a
    formula of the eight input blocks: the loads read the whole blocks, the one store covers the buffer, and the stored
    value at that entry is the body's arithmetic at `(t, u, v)`. -/
theorem outBuf_apply (x0 x1 : Vec Ideal S1x64x512 .f32) (x2 : Vec Ideal S512x512 .f32) (x3 : Vec Ideal S512 .f32)
    (x4 : Vec Ideal S512x512 .f32) (x5 : Vec Ideal S512 .f32) (x6 : Vec Ideal S500x512 .f32) (x7 : Vec Ideal S500 .f32)
    (w : Fin 1) (t u : Fin 64) (v : Fin 500) :
    out0_8 (F := Ideal) x0 x1 x2 x3 x4 x5 x6 x7 (ix4 w t u v)
      = (∑ j : Fin 512, Ideal.tanh (((∑ e : Fin 512, x0 (ix3 (0 : Fin 1) t e) * x2 (ix2 j e)) + x3 (ix1 j))
            + ((∑ d : Fin 512, x1 (ix3 (0 : Fin 1) u d) * x4 (ix2 j d)) + x5 (ix1 j))) * x6 (ix2 v j)) + x7 (ix1 v) := by
  unfold out0_8
  rw [Value.canon8_eq]
  have e : Value.ix8_0 (ix4 w t u v) = ix3 t u v :=
    funext fun a => by match a with | ⟨0, _⟩ => rfl | ⟨1, _⟩ => rfl | ⟨2, _⟩ => rfl
  show k0_pay2 _ _ _ _ _ _ _ _ (Value.ix8_0 (ix4 w t u v)) = _
  rw [e]
  simp only [View.ld_unit_zero (S := S1x64x512) hz3, View.ld_unit_zero (S := S512x512) hz2,
    View.ld_unit_zero (S := S500x512) hz2, View.ld_unit_zero (S := S512) hz1, View.ld_unit_zero (S := S500) hz1]
  exact pay_apply x0 x1 x2 x4 x6 x3 x5 x7 t u v

/-! ## Where each window's block sits in its array -/

/-- The printed index maps, decided over the 64 grid points: the encoder window moves with the output's first two block
    indices, the decoder window with the first, every other input window stays at block zero, and the output's block
    indices are `(n, b, 0, 0)` with `n, b < 8`. -/
theorem idx_facts : ∀ t : Fin cfg0.N,
    win0_0.index t (0 : Fin 3) = win0_8.index t (0 : Fin 4) ∧ win0_0.index t (1 : Fin 3) = win0_8.index t (1 : Fin 4)
    ∧ win0_0.index t (2 : Fin 3) = 0
    ∧ win0_1.index t (0 : Fin 3) = win0_8.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 4) < 8 ∧ win0_8.index t (1 : Fin 4) < 8 ∧ win0_8.index t (2 : Fin 4) = 0
    ∧ win0_8.index t (3 : Fin 4) = 0 :=
  (by decide +kernel : ∀ t : Fin grid0.N, _)

/-- Every pair `(n, b)` is SOME point's output block index. -/
theorem idx_onto : ∀ (q0 : Fin 8) (q1 : Fin 8), ∃ t : Fin cfg0.N, win0_8.index t = ![q0.val, q1.val, 0, 0] :=
  (by decide +kernel : ∀ (q0 : Fin 8) (q1 : Fin 8), ∃ t : Fin grid0.N, win0_8.index t = ![q0.val, q1.val, 0, 0])

/-- The encoder window's block at a point with output block index `(n, b)`: row `p` of the block is row `(n, 64·b + p)` of
    the encoder states. -/
theorem encBlk_apply (c : Dev nD) (t : Fin cfg0.N) (n b : Fin 8) (hn : win0_8.index t (0 : Fin 4) = n.val)
    (hb : win0_8.index t (1 : Fin 4) = b.val) (p : Fin 64) (e : Fin 512) (f : Fin 512) (hf : f.val = b.val * 64 + p.val) :
    (iblk m c 0 t : Vec Ideal S1x64x512 .f32) (ix3 (0 : Fin 1) p e)
      = (m ((c : Thread nD τ).loc main_arg0) : S8x512x512.Idx → EReal) (ix3 n f e) := by
  obtain ⟨e00, e01, e02, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * 0 = n.val; omega
  | ⟨1, _⟩ => show win0_0.index t (1 : Fin 3) * 64 + 1 * p.val = f.val; omega
  | ⟨2, _⟩ => show win0_0.index t (2 : Fin 3) * 512 + 1 * e.val = e.val; omega

/-- The decoder window's block at a point with output block index `(n, ·)` is batch `n` of the decoder states. -/
theorem decBlk_apply (c : Dev nD) (t : Fin cfg0.N) (n : Fin 8) (hn : win0_8.index t (0 : Fin 4) = n.val)
    (q : Fin 64) (d : Fin 512) :
    (iblk m c 1 t : Vec Ideal S1x64x512 .f32) (ix3 (0 : Fin 1) q d)
      = (m ((c : Thread nD τ).loc main_arg1) : S8x64x512.Idx → EReal) (ix3 n q d) := by
  obtain ⟨-, -, -, e10, e11, e12, -⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * 0 = n.val; omega
  | ⟨1, _⟩ => show win0_1.index t (1 : Fin 3) * 64 + 1 * q.val = q.val; omega
  | ⟨2, _⟩ => show win0_1.index t (2 : Fin 3) * 512 + 1 * d.val = d.val; omega

/-- The encoder weight comes whole at every point. -/
theorem wencBlk_apply (c : Dev nD) (t : Fin cfg0.N) (j : Fin 512) (e : Fin 512) :
    (iblk m c 2 t : Vec Ideal S512x512 .f32) (ix2 j e) = (m ((c : Thread nD τ).loc main_arg2) : S512x512.Idx → EReal) (ix2 j e) := by
  obtain ⟨-, -, -, -, -, -, e20, e21, e30, e40, e41, e50, e60, e61, e70, -⟩ := idx_facts t
  unfold iblk
  rw [View.read_apply]
  show V m c main_arg2 _ = m (c.tc.loc main_arg2) _
  unfold V
  congr 1
  funext a
  apply Fin.ext
  match a with
  | ⟨0, _⟩ => show win0_2.index t (0 : Fin 2) * 512 + 1 * j.val = j.val; omega
  | ⟨1, _⟩ => show win0_2.index t (1 : Fin 2) * 512 + 1 * e.val = e.val; omega

/-- The encoder bias comes whole at every point. -/
theorem bencBlk_apply (c : Dev nD) (t : Fin cfg0.N) (j : Fin 512) :
    (iblk m c 3 t : Vec Ideal S512 .f32) (ix1 j) = (m ((c : Thread nD τ).loc main_arg3) : S512.Idx → EReal) (ix1 j) := by
  obtain ⟨-, -, -, -, -, -, e20, e21, e30, e40, e41, e50, e60, e61, e70, -⟩ := idx_facts t
  unfold iblk
  rw [View.read_apply]
  show V m c main_arg3 _ = m (c.tc.loc main_arg3) _
  unfold V
  congr 1
  funext a
  apply Fin.ext
  match a with
  | ⟨0, _⟩ => show win0_3.index t (0 : Fin 1) * 512 + 1 * j.val = j.val; omega

/-- The decoder weight comes whole at every point. -/
theorem wdecBlk_apply (c : Dev nD) (t : Fin cfg0.N) (j : Fin 512) (d : Fin 512) :
    (iblk m c 4 t : Vec Ideal S512x512 .f32) (ix2 j d) = (m ((c : Thread nD τ).loc main_arg4) : S512x512.Idx → EReal) (ix2 j d) := by
  obtain ⟨-, -, -, -, -, -, e20, e21, e30, e40, e41, e50, e60, e61, e70, -⟩ := idx_facts t
  unfold iblk
  rw [View.read_apply]
  show V m c main_arg4 _ = m (c.tc.loc main_arg4) _
  unfold V
  congr 1
  funext a
  apply Fin.ext
  match a with
  | ⟨0, _⟩ => show win0_4.index t (0 : Fin 2) * 512 + 1 * j.val = j.val; omega
  | ⟨1, _⟩ => show win0_4.index t (1 : Fin 2) * 512 + 1 * d.val = d.val; omega

/-- The decoder bias comes whole at every point. -/
theorem bdecBlk_apply (c : Dev nD) (t : Fin cfg0.N) (j : Fin 512) :
    (iblk m c 5 t : Vec Ideal S512 .f32) (ix1 j) = (m ((c : Thread nD τ).loc main_arg5) : S512.Idx → EReal) (ix1 j) := by
  obtain ⟨-, -, -, -, -, -, e20, e21, e30, e40, e41, e50, e60, e61, e70, -⟩ := idx_facts t
  unfold iblk
  rw [View.read_apply]
  show V m c main_arg5 _ = m (c.tc.loc main_arg5) _
  unfold V
  congr 1
  funext a
  apply Fin.ext
  match a with
  | ⟨0, _⟩ => show win0_5.index t (0 : Fin 1) * 512 + 1 * j.val = j.val; omega

/-- The output weight comes whole at every point. -/
theorem woutBlk_apply (c : Dev nD) (t : Fin cfg0.N) (v : Fin 500) (j : Fin 512) :
    (iblk m c 6 t : Vec Ideal S500x512 .f32) (ix2 v j) = (m ((c : Thread nD τ).loc main_arg6) : S500x512.Idx → EReal) (ix2 v j) := by
  obtain ⟨-, -, -, -, -, -, e20, e21, e30, e40, e41, e50, e60, e61, e70, -⟩ := idx_facts t
  unfold iblk
  rw [View.read_apply]
  show V m c main_arg6 _ = m (c.tc.loc main_arg6) _
  unfold V
  congr 1
  funext a
  apply Fin.ext
  match a with
  | ⟨0, _⟩ => show win0_6.index t (0 : Fin 2) * 500 + 1 * v.val = v.val; omega
  | ⟨1, _⟩ => show win0_6.index t (1 : Fin 2) * 512 + 1 * j.val = j.val; omega

/-- The output bias comes whole at every point. -/
theorem boutBlk_apply (c : Dev nD) (t : Fin cfg0.N) (v : Fin 500) :
    (iblk m c 7 t : Vec Ideal S500 .f32) (ix1 v) = (m ((c : Thread nD τ).loc main_arg7) : S500.Idx → EReal) (ix1 v) := by
  obtain ⟨-, -, -, -, -, -, e20, e21, e30, e40, e41, e50, e60, e61, e70, -⟩ := idx_facts t
  unfold iblk
  rw [View.read_apply]
  show V m c main_arg7 _ = m (c.tc.loc main_arg7) _
  unfold V
  congr 1
  funext a
  apply Fin.ext
  match a with
  | ⟨0, _⟩ => show win0_7.index t (0 : Fin 1) * 500 + 1 * v.val = v.val; omega

/-! ## What a point writes back, the cover, the array after the run -/

/-- The specification at the argument arrays as launched. -/
abbrev Gm (c : Dev nD) : S8x512x64x500.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- WHAT POINT `t` WRITES BACK is block `t` of `G` of the argument arrays. -/
theorem flushed_eq (c : Dev nD) (t : Fin cfg0.N) :
    (dats m 0 c).flushed 8 t = ((cfg0.win 8).blk t).view.read (Elt Ideal) (Gm m c) := by
  rw [Value.flushed8]
  obtain ⟨-, -, -, -, -, -, -, -, -, -, -, -, -, -, -, h80, h81, h82, h83⟩ := idx_facts t
  obtain ⟨n, hn⟩ : ∃ n : Fin 8, win0_8.index t (0 : Fin 4) = n.val := ⟨⟨_, h80⟩, rfl⟩
  obtain ⟨b, hb⟩ : ∃ b : Fin 8, win0_8.index t (1 : Fin 4) = b.val := ⟨⟨_, h81⟩, rfl⟩
  refine funext fun (y : S1x64x64x500.Idx) => ?_
  obtain ⟨w, p, q, r, rfl⟩ : ∃ (w : Fin 1) (p q : Fin 64) (r : Fin 500), y = ix4 w p q r :=
    ⟨y 0, y 1, y 2, y 3, eq_ix4 y⟩
  obtain ⟨f, hf⟩ : ∃ f : Fin 512, f.val = b.val * 64 + p.val :=
    ⟨⟨b.val * 64 + p.val, by have := b.isLt; have := p.isLt; omega⟩, rfl⟩
  show out0_8 (iblk m c 0 t) (iblk m c 1 t) (iblk m c 2 t) (iblk m c 3 t) (iblk m c 4 t) (iblk m c 5 t) (iblk m c 6 t) (iblk m c 7 t) (ix4 w p q r)
    = Gm m c (((cfg0.win 8).blk t).view.emb (ix4 w p q r))
  have hemb : ((cfg0.win 8).blk t).view.emb (ix4 w p q r) = (ix4 n f q r : S8x512x64x500.Idx) := by
    have hw := w.isLt
    funext a
    apply Fin.ext
    match a with
    | ⟨0, _⟩ => show win0_8.index t (0 : Fin 4) * 1 + 1 * w.val = n.val; omega
    | ⟨1, _⟩ => show win0_8.index t (1 : Fin 4) * 64 + 1 * p.val = f.val; omega
    | ⟨2, _⟩ => show win0_8.index t (2 : Fin 4) * 64 + 1 * q.val = q.val; omega
    | ⟨3, _⟩ => show win0_8.index t (3 : Fin 4) * 500 + 1 * r.val = r.val; omega
  rw [hemb]
  refine (outBuf_apply (iblk m c 0 t) (iblk m c 1 t) (iblk m c 2 t) (iblk m c 3 t) (iblk m c 4 t) (iblk m c 5 t) (iblk m c 6 t) (iblk m c 7 t) w p q r).trans ?_
  show _ = logit _ _ _ _ _ _ _ _ n f q r
  unfold logit encProj decProj
  simp only [fun e => encBlk_apply m c t n b hn hb p e f hf, fun d => decBlk_apply m c t n hn q d,
    wencBlk_apply m c t, bencBlk_apply m c t, wdecBlk_apply m c t, bdecBlk_apply m c t, woutBlk_apply m c t,
    boutBlk_apply m c t]

/-- An index of the output array is in point `t`'s block iff each coordinate is in the block's range on its axis. -/
theorem mem_blk (t : Fin cfg0.N) (i : S8x512x64x500.Idx) :
    i ∈ ((cfg0.win 8).blk t).view.set ↔ ∀ a : Fin 4, win0_8.index t a * S1x64x64x500.size a ≤ (i a).val ∧ (i a).val < win0_8.index t a * S1x64x64x500.size a + S1x64x64x500.size a := by
  show i ∈ ((View.whole main_v0).slice (win0_8.rect t)).set ↔ _
  rw [View.set_slice_whole, Rect.mem_set_unit]
  exact Iff.rfl

/-- THE COVER: index `(n, t, u, v)` lies in the block of the point whose output block index is `(n, t / 64)`. -/
theorem cover (i : S8x512x64x500.Idx) :
    ∃ t : Fin cfg0.N, (cfg0.win 8).flush t = true ∧ i ∈ ((cfg0.win 8).blk t).view.set := by
  have hi0 : (i 0).val < 8 := (i 0).isLt
  have hi1 : (i 1).val < 512 := (i 1).isLt
  have hi2 : (i 2).val < 64 := (i 2).isLt
  have hi3 : (i 3).val < 500 := (i 3).isLt
  obtain ⟨t, ht⟩ := idx_onto ⟨(i 0).val, hi0⟩ ⟨(i 1).val / 64, by omega⟩
  have q0 : win0_8.index t (0 : Fin 4) = (i 0).val := congrFun ht 0
  have q1 : win0_8.index t (1 : Fin 4) = (i 1).val / 64 := congrFun ht 1
  have q2 : win0_8.index t (2 : Fin 4) = 0 := congrFun ht 2
  have q3 : win0_8.index t (3 : Fin 4) = 0 := congrFun ht 3
  refine ⟨t, flush0_8 t, ?_⟩
  rw [mem_blk]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 64 ≤ (i 1).val ∧ (i 1).val < win0_8.index t (1 : Fin 4) * 64 + 64; omega
  | ⟨2, _⟩ => show win0_8.index t (2 : Fin 4) * 64 ≤ (i 2).val ∧ (i 2).val < win0_8.index t (2 : Fin 4) * 64 + 64; omega
  | ⟨3, _⟩ => show win0_8.index t (3 : Fin 4) * 500 ≤ (i 3).val ∧ (i 3).val < win0_8.index t (3 : Fin 4) * 500 + 500; omega

/-- THE ARRAY after the run is `G` of the argument arrays: the written-back blocks are blocks of `G` and cover it. -/
theorem final (c : Dev nD) : (dats m 0 c).arrAt 8 cfg0.N = Gm m c :=
  (dats m 0 c).arrAt_eq_of_cover 8 (Gm m c) (fun t _ => flushed_eq m c t) cover

/-- The kernel's run, read: every weakly fair execution terminates with the output array at `G` of the argument arrays
    and the arguments unchanged. -/
theorem run : θ_run defs (onTc (τ := τ) (main (F := Ideal))) ⟨m, fun _ => 0, ρ⟩ fun r => ∀ c : Dev nD,
      r.2.mem ((c : Thread nD τ).loc main_v0) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.Joiner

end
-- ==== Proof.RefValue.lean ====
/-
  The reference computes `Cert.Joiner.G`.

  Read one operation at a time, the reference's result at `(n, t, u, v)` is a sum over the joint coordinate `k` of `tanh` of
  the two biased projections (each a sum over its contracted axis) times the output weight, plus the output bias. Every
  operand is read at an index composed from the broadcasts' and products' index maps; on coordinates these compose to the
  plain indices `(n, t, e)`, `(k, e)`, `k`, `(n, u, d)`, `(k, d)`, `(v, k)`, `v` of the specification, so the two sides are
  the same term.
-/
import proofs.«133273_j59906203845291_1_alg».proof.Proof.Gen.ReferenceIdeal.Read
import proofs.«133273_j59906203845291_1_alg».proof.Proof.Spec

noncomputable section

open scoped BigOperators

namespace Cert.Joiner

open Cert.ReferenceIdeal Cert.ReferenceIdeal.Read Idealize.ShloMosaic Idealize.ShloMosaic.ValueIdx

/-- The reference's last stage, as a function of the eight arguments, is the specification. -/
theorem ref_eq_G (x0 : (⟨S8x512x512, .f32⟩ : BufTy).Contents (Elt Ideal)) (x1 : (⟨S8x64x512, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (x6 : (⟨S500x512, .f32⟩ : BufTy).Contents (Elt Ideal)) (x7 : (⟨S500, .f32⟩ : BufTy).Contents (Elt Ideal)) :
    val_main_v17 (F := Ideal) x0 x1 x2 x3 x4 x5 x6 x7 = G x0 x1 x2 x3 x4 x5 x6 x7 := by
  funext i
  obtain ⟨n, t, u, v, rfl⟩ : ∃ (n : Fin 8) (t : Fin 512) (u : Fin 64) (v : Fin 500), i = ix4 n t u v :=
    ⟨i 0, i 1, i 2, i 3, eq_ix4 i⟩
  rw [G_ix4]
  unfold logit encProj decProj
  -- the operands' indices, by coordinates
  have eEnc : ∀ k e : Fin 512, lidx_main_v0 (idx_main_v8 (idx_main_v10 (lidx_main_v14 (ix4 n t u v) k))) e = ix3 n t e :=
    fun k e => funext fun a => by match a with | ⟨0, _⟩ => rfl | ⟨1, _⟩ => rfl | ⟨2, _⟩ => rfl
  have eWenc : ∀ k e : Fin 512, ridx_main_v0 (idx_main_v8 (idx_main_v10 (lidx_main_v14 (ix4 n t u v) k))) e = ix2 k e :=
    fun k e => funext fun a => by match a with | ⟨0, _⟩ => rfl | ⟨1, _⟩ => rfl
  have eBenc : ∀ k : Fin 512, idx_main_v1 (idx_main_v2 (idx_main_v8 (idx_main_v10 (lidx_main_v14 (ix4 n t u v) k)))) = ix1 k :=
    fun k => funext fun a => by match a with | ⟨0, _⟩ => rfl
  have eDec : ∀ k d : Fin 512, lidx_main_v4 (idx_main_v9 (idx_main_v11 (lidx_main_v14 (ix4 n t u v) k))) d = ix3 n u d :=
    fun k d => funext fun a => by match a with | ⟨0, _⟩ => rfl | ⟨1, _⟩ => rfl | ⟨2, _⟩ => rfl
  have eWdec : ∀ k d : Fin 512, ridx_main_v4 (idx_main_v9 (idx_main_v11 (lidx_main_v14 (ix4 n t u v) k))) d = ix2 k d :=
    fun k d => funext fun a => by match a with | ⟨0, _⟩ => rfl | ⟨1, _⟩ => rfl
  have eBdec : ∀ k : Fin 512, idx_main_v5 (idx_main_v6 (idx_main_v9 (idx_main_v11 (lidx_main_v14 (ix4 n t u v) k)))) = ix1 k :=
    fun k => funext fun a => by match a with | ⟨0, _⟩ => rfl
  have eWout : ∀ k : Fin 512, ridx_main_v14 (ix4 n t u v) k = ix2 v k :=
    fun k => funext fun a => by match a with | ⟨0, _⟩ => rfl | ⟨1, _⟩ => rfl
  have eBout : idx_main_v15 (idx_main_v16 (ix4 n t u v)) = ix1 v :=
    funext fun a => by match a with | ⟨0, _⟩ => rfl
  -- the reference, one operation at a time, outermost first
  simp only [val_main_v17_apply, val_main_v14_apply, val_main_v16_apply, val_main_v15_apply, val_main_v13_apply,
    val_main_v12_apply, val_main_v10_apply, val_main_v8_apply, val_main_v3_apply, val_main_v0_apply, val_main_v2_apply,
    val_main_v1_apply, val_main_v11_apply, val_main_v9_apply, val_main_v7_apply, val_main_v4_apply, val_main_v6_apply,
    val_main_v5_apply, eEnc, eWenc, eBenc, eDec, eWdec, eBdec, eWout, eBout]
  rfl

end Cert.Joiner

end
-- ==== Proof.lean ====
/-
  A transducer joint network on a TPU grid against its jnp form, equal on the extended reals.

  Both programs compute, for encoder states `enc[n,t,·]`, decoder states `dec[n,u,·]`, two projections and an output layer,

      out[n,t,u,v] = Σ_j tanh( (Σ_e enc[n,t,e]·Wenc[j,e] + benc[j]) + (Σ_d dec[n,u,d]·Wdec[j,d] + bdec[j]) ) · Wout[v,j] + bout[v]

  (`Cert.Joiner.G`, Proof/Spec.lean). The reference does it with three whole contractions and broadcasts over the
  `(t, u)` grid (Proof/RefValue.lean). The kernel tiles `(n, t)` into 8 × 8 blocks of 64 frames; per block it projects
  the 64 encoder rows and the batch's 64 decoder rows, adds them over a 64 × 64 grid, applies `tanh`, flattens the grid to
  4096 rows for the output layer and cuts the result back (Proof/KernelValue.lean); the blocks it writes back are blocks of
  `G` and tile the output (Proof/Blocks.lean). On the extended reals a change of float format is the identity, a product
  into a zero accumulator is the plain sum over the contracted axis, and both programs' `tanh` is one function, so the two
  sides are the same term index by index: no algebraic law is needed and the finiteness of the inputs is never used.
  The three frames are the generated ones (the reference's is its run with the result dropped); the idealization rewrote
  nothing, so there is nothing to preserve.
-/
import proofs.«133273_j59906203845291_1_alg».proof.Defs
import proofs.«133273_j59906203845291_1_alg».proof.Proof.Gen.Kernel
import proofs.«133273_j59906203845291_1_alg».proof.Proof.Gen.Kernel.Skeleton
import proofs.«133273_j59906203845291_1_alg».proof.Proof.Gen.Kernel.Launch
import proofs.«133273_j59906203845291_1_alg».proof.Proof.Gen.Kernel.Points
import proofs.«133273_j59906203845291_1_alg».proof.Proof.Gen.Kernel.Frame
import proofs.«133273_j59906203845291_1_alg».proof.Proof.Gen.KernelIdeal
import proofs.«133273_j59906203845291_1_alg».proof.Proof.Gen.KernelIdeal.Skeleton
import proofs.«133273_j59906203845291_1_alg».proof.Proof.Gen.KernelIdeal.Launch
import proofs.«133273_j59906203845291_1_alg».proof.Proof.Gen.KernelIdeal.Points
import proofs.«133273_j59906203845291_1_alg».proof.Proof.Gen.KernelIdeal.Frame
import proofs.«133273_j59906203845291_1_alg».proof.Proof.Gen.ReferenceIdeal
import proofs.«133273_j59906203845291_1_alg».proof.Proof.Gen.KernelIdeal.Value
import proofs.«133273_j59906203845291_1_alg».proof.Proof.Gen.ReferenceIdeal.Run
import proofs.«133273_j59906203845291_1_alg».proof.Proof.Gen.ReferenceIdeal.Read
import proofs.«133273_j59906203845291_1_alg».proof.Proof.Gen.Pre_finite_inputs
import proofs.«133273_j59906203845291_1_alg».proof.Proof.Blocks
import proofs.«133273_j59906203845291_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's output array ends at `G` of its arguments (`Cert.Joiner.run`) and the reference's
    result is `G` of its arguments (`Cert.Joiner.ref_eq_G`); the arguments agree. -/
theorem algebraic : Cert.algebraic_KernelIdeal_ReferenceIdeal := by
  intro m ρ m' ρ' _ hagree
  refine ⟨fun c => Cert.Joiner.Gm m c, Cert.Joiner.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v17_eq, Cert.Joiner.ref_eq_G, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
